-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S_ : Shape := ⟨0, ![]⟩
abbrev S16384 : Shape := ⟨1, ![16384]⟩
abbrev S16384x1 : Shape := ⟨2, ![16384, 1]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S16384x16384_S16384_d1 : S16384x16384.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S16384x1_S_d0_1 : S16384x1.ReducesTo [0, 1] S_

variable [Facts]

def fn_part2 {F : FTy → Type} [FloatOps F] (main_v28 : IVec S_ 1) (main_v32 : FVec F S16384x1 .f32) (main_cst_12 : FVec F S_ .f32) : IVec S_ 1 :=
  let main_v33 : FVec F S16384x1 .f32 := broadcastInDim S16384x1 ![] bcast_S_S16384x1 main_cst_12
  let main_v34 : IVec S16384x1 1 := cmpf .une main_v32 main_v33
  let main_c_13 : IVec S_ 1 := constantI S_ 1 1#1
  let main_v35 : IVec S_ 1 := (fun x v => Host.reduce IntOp.andi x v reducesTo_S16384x1_S_d0_1 h_S_) main_v34 main_c_13
  let main_v36 : IVec S_ 1 := andi main_v28 main_v35
  main_v36

def fn_part1 {F : FTy → Type} [FloatOps F] (main_arg1 : FVec F S16384x16384 .f32) (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_cst_10 : FVec F S_ .f32 := constant S_ .f32 0x00000000#32
  let main_v29 : FVec F S16384 .f32 := (fun x v => Host.reduceAdd x v reducesTo_S16384x16384_S16384_d1 h_S_) main_arg1 main_cst_10
  let main_v30 : FVec F S16384x1 .f32 := broadcastInDim S16384x1 ![0] bcast_S16384_S16384x1_0 main_v29
  let main_cst_11 : FVec F S_ .f32 := constant S_ .f32 0x3727C5AC#32
  let main_v31 : FVec F S16384x1 .f32 := broadcastInDim S16384x1 ![] bcast_S_S16384x1 main_cst_11
  let main_v32 : FVec F S16384x1 .f32 := addf main_v30 main_v31
  let main_cst_12 : FVec F S_ .f32 := constant S_ .f32 0x00000000#32
  fn_part2 (F := F) main_v28 main_v32 main_cst_12

def fn {F : FTy → Type} [FloatOps F] (main_arg0 : FVec F S16384x512 .f32) (main_arg1 : FVec F S16384x16384 .f32) (main_arg2 : FVec F S512x512 .f32) (main_arg3 : FVec F S512 .f32) (main_arg4 : FVec F S512x512 .f32) (main_arg5 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg4 main_arg5 main_v13 main_v16
-- ==== Kernel.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S16384x512, .bf16⟩
  | .hbm, ⟨7, _⟩ => ⟨S512x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S1x512, .f32⟩
  | .hbm, ⟨12, _⟩ => ⟨S1x512, .f32⟩
  | .hbm, ⟨13, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S16384x512, .bf16⟩
  | .local _ .vmem, ⟨3, _⟩ => ⟨S512x512, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_6 : Index := 0#32
  ![v14.toNat, 0]
def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_12 : BitVec 32 := 0#32
  let v25 : BitVec 1 := Scalar.cmpi .ne v24 c0_i32_12
  v25

def k0_mult2 (i : grid0.Coords) : BitVec 32 :=
  let arg0 : BitVec 32 := BitVec.ofNat 32 (i 0).val
  let c1024_i32 : BitVec 32 := 1024#32
  let v40 : BitVec 32 := Scalar.muli arg0 c1024_i32
  v40
def k0_off2 (i : grid0.Coords) : Fin 2 → Nat :=
  let arg0 : BitVec 32 := BitVec.ofNat 32 (i 0).val
  let c1024_i32 : BitVec 32 := 1024#32
  let v40 : BitVec 32 := Scalar.muli arg0 c1024_i32
  let v41 : BitVec 32 := v40
  let v42 : Index := Scalar.indexCast v41
  let c0_23 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  transposes_S512x512_S512x512_1_0 : S512x512.Transposes [1, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x512_S1024 : S1024x512.Reduces [1] S1024
  shapeCasts_S1024_S1024x1 : S1024.ShapeCasts S1024x1
  h_S512x512 : 0 < S512x512.numel
  shapeCasts_S512x512_S512x512 : S512x512.ShapeCasts S512x512
  broadcasts_S1024x1_S1024x512 : S1024x1.Broadcasts S1024x512
  inb_S512x512_S512x512_0_0 : ∀ a, (![0, 0] : Fin 2 → Nat) a + S512x512.size a ≤ S512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S16384x512.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x512.size a ≤ S16384x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x16384.size a
  hwx0_0 : ∀ i : grid0.Coords, EltTy.bits .f32 = 32 ∨ (Rect.block (s := S16384x16384) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x512.size a ≤ S16384x512.size a
  hwx0_1 : ∀ i : grid0.Coords, EltTy.bits .bf16 = 32 ∨ (Rect.block (s := S16384x512) S16384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x512 : Shape := ⟨2, ![512, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x16384, .f32⟩
  | .hbm, ⟨13, _⟩ => ⟨S16384x16384, .f32⟩
  | .hbm, ⟨14, _⟩ => ⟨S16384x512, .f32⟩
  | .hbm, ⟨15, _⟩ => ⟨S512x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S512x512, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16384_0_1 : S16384x1.BroadcastsInDim S16384x16384 (![0, 1] : Fin 2 → Fin S16384x16384.rank)
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x16384_S16384x512_S16384x512_1_0_0_1_n_n_wf : DotDims.WF S16384x16384 S16384x512 S16384x512 [1] [0] [0] [1] [] []
  dot_S16384x512_S512x512_S16384x512_1_0_0_1_n_n_wf : DotDims.WF S16384x512 S512x512 S16384x512 [1] [0] [0] [1] [] []

variable [Facts₀]

def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Pre.lean ====
/-
  What the precondition says of the arguments, read back from its printed form.

  The precondition is a conjunction of `all`-reductions.  Read at an index, the first two say that every entry of the
  feature matrix and of the adjacency matrix has absolute value below +∞, i.e. is a real number; the last says that, for
  every row of the adjacency matrix, the row total plus the small constant — the number the reference divides that row by —
  is not zero.  (The conjuncts about the weights and the biases are not used: the part of the computation they enter
  needs only associativity of addition.)
-/
import proofs.«169291_j18614388261160_2_alg».proof.Pre_finite_inputs
import proofs.«169291_j18614388261160_2_alg».proof.Proof.LibRealSums
import Idealize.ShloMosaic.Lib.ReduceAll
import Idealize.ShloMosaic.Lib.ValueIdx
import Idealize.ShloMosaic.PureOps.Ideal.Laws

noncomputable section

namespace Cert.Sage.Pre

open Idealize.ShloMosaic Cert.Pre_finite_inputs Cert.Lib.RealSums

variable [Cert.Pre_finite_inputs.Facts]
open Cert.Pre_finite_inputs.Facts

instance : Subsingleton S_.Idx := ⟨fun a b => funext fun d => d.elim0⟩

/-- An extended real whose absolute value compares below the pattern of +∞ is a real. -/
theorem fin'_of_abs_lt (x : EReal) (h : Ideal.cmp .olt (max x (-x)) (Ideal.ofBits .f32 0x7F800000#32) = 1#1) : Fin' x := by
  have htop : Ideal.ofBits .f32 0x7F800000#32 = (⊤ : EReal) := by simp [Ideal.ofBits, Ideal.ieee]
  rw [htop] at h
  have hlt : max x (-x) < ⊤ := by
    unfold Ideal.cmp at h
    by_contra hn
    simp [hn] at h
  constructor
  · rintro rfl; simp at hlt
  · rintro rfl; simp at hlt

/-- Two extended reals that compare "not equal" are different. -/
theorem ne_of_cmp_une (a b : EReal) (h : Ideal.cmp .une a b = 1#1) : a ≠ b := by
  unfold Ideal.cmp at h
  intro hn
  simp [hn] at h

/-- The row totals plus the small constant, as the precondition spells them: the host's sum over the second axis from zero, set
    in a column, plus the constant. -/
def rowDivisor (x1 : FVec Ideal S16384x16384 .f32) : FVec Ideal S16384x1 .f32 :=
  addf (broadcastInDim S16384x1 ![0] bcast_S16384_S16384x1_0
      (Host.reduceAdd x1 (constant S_ .f32 0x00000000#32) reducesTo_S16384x16384_S16384_d1 h_S_))
    (broadcastInDim S16384x1 ![] bcast_S_S16384x1 (constant S_ .f32 0x3727C5AC#32))

/-- THE PRECONDITION, READ BACK: the feature and adjacency entries are reals, and no row's divisor is zero. -/
theorem decode (x0 : FVec Ideal S16384x512 .f32) (x1 : FVec Ideal S16384x16384 .f32) (x2 : FVec Ideal S512x512 .f32)
    (x3 : FVec Ideal S512 .f32) (x4 : FVec Ideal S512x512 .f32) (x5 : FVec Ideal S512 .f32)
    (h : fn (F := Ideal) x0 x1 x2 x3 x4 x5 = fun _ => 1#1) :
    (∀ i, Fin' (x0 i)) ∧ (∀ i, Fin' (x1 i)) ∧ (∀ i, rowDivisor x1 i ≠ 0) := by
  have h1 := congrFun h (fun a => a.elim0)
  dsimp only [fn, fn_part1, fn_part2] at h1
  obtain ⟨h28, h35⟩ := IntOp.andi_eq_one.1 (show IntOp.andi _ _ = 1#1 from h1)
  obtain ⟨h23, -⟩ := IntOp.andi_eq_one.1 (show IntOp.andi _ _ = 1#1 from h28)
  obtain ⟨h18, -⟩ := IntOp.andi_eq_one.1 (show IntOp.andi _ _ = 1#1 from h23)
  obtain ⟨h13, -⟩ := IntOp.andi_eq_one.1 (show IntOp.andi _ _ = 1#1 from h18)
  obtain ⟨h8, -⟩ := IntOp.andi_eq_one.1 (show IntOp.andi _ _ = 1#1 from h13)
  obtain ⟨h3, h7⟩ := IntOp.andi_eq_one.1 (show IntOp.andi _ _ = 1#1 from h8)
  refine ⟨fun i => ?_, fun i => ?_, fun i => ?_⟩
  · have e := Host.reduce_andi_all _ _ _ _ (fun a => a.elim0) h3 i
    simp only [cmpf, Host.absf, broadcastInDim, constant] at e
    exact fin'_of_abs_lt (x0 i) e
  · have e := Host.reduce_andi_all _ _ _ _ (fun a => a.elim0) h7 i
    simp only [cmpf, Host.absf, broadcastInDim, constant] at e
    exact fin'_of_abs_lt (x1 i) e
  · have e := Host.reduce_andi_all _ _ _ _ (fun a => a.elim0) h35 i
    simp only [cmpf, broadcastInDim, constant] at e
    intro hc
    exact ne_of_cmp_une _ _ e (hc.trans Ideal.ofBits_zero_f32.symm)

end Cert.Sage.Pre

end
-- ==== Proof.Pieces.lean ====
/-
  What one run of the kernel body leaves in each buffer, as a term of what it loaded.

  The body keeps two running totals between grid steps: a [1024, 512] block (the neighbour sums of a row block) and a [1024, 1]
  column (the row totals of the adjacency block row).  At the first step of a row block both are reset to zero and then receive the
  step's contribution; at every later step they receive the step's contribution on top of what the step before left; at the last step
  the output block is computed from the two totals.  Each lemma states, for one case and one buffer, that the contents the body
  leaves are the body's own arithmetic applied to the loaded blocks (and to what the step before left).
-/
import proofs.«169291_j18614388261160_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.Sage.Pieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

theorem soutA0 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x512 .f32) (x1 : Vec F S16384x512 .bf16) (x2 : Vec F S512x512 .bf16) (x3 : Vec F S512x512 .bf16) (x4 : Vec F S1x512 .f32) (x5 : Vec F S1x512 .f32)  :
    sout0_A_0 c i arg2 harg2 arg3 harg3 arg4 harg4 arg5 harg5 arg6 harg6 arg7 harg7 arg8 harg8 arg9 harg9 arg10 harg10 hc0 hc1 x0 x1 x2 x3 x4 x5  = k0_pay4 x0 (View.ld x1 (Rect.unit (s := S16384x512) (k0_off1 i) S512x512.size (k0_off1_inb i))) k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 )]
  unfold kernelRun0_A
  dsimp only
  try sl_unfold_words
  rw [View.canon_cons_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem soutA1 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : cond0_0 i) (hc1 : ¬cond0_1 i)
    (x0 : Vec F S1024x512 .f32) (x1 : Vec F S16384x512 .bf16) (x2 : Vec F S512x512 .bf16) (x3 : Vec F S512x512 .bf16) (x4 : Vec F S1x512 .f32) (x5 : Vec F S1x512 .f32)  :
    sout0_A_1 c i arg2 harg2 arg3 harg3 arg4 harg4 arg5 harg5 arg6 harg6 arg7 harg7 arg8 harg8 arg9 harg9 arg10 harg10 hc0 hc1 x0 x1 x2 x3 x4 x5  = k0_pay3 x0 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5 )]
  unfold kernelRun0_A
  dsimp only
  try sl_unfold_words
  rw [View.canon_cons_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem soutB0 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x512 .f32) (x1 : Vec F S16384x512 .bf16) (x2 : Vec F S512x512 .bf16) (x3 : Vec F S512x512 .bf16) (x4 : Vec F S1x512 .f32) (x5 : Vec F S1x512 .f32) (xs0 : Vec F S1024x512 .f32) (xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay4 x0 (View.ld x1 (Rect.unit (s := S16384x512) (k0_off1 i) S512x512.size (k0_off1_inb i))) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  try sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem soutB1 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : ¬cond0_1 i)
    (x0 : Vec F S1024x512 .f32) (x1 : Vec F S16384x512 .bf16) (x2 : Vec F S512x512 .bf16) (x3 : Vec F S512x512 .bf16) (x4 : Vec F S1x512 .f32) (x5 : Vec F S1x512 .f32) (xs0 : Vec F S1024x512 .f32) (xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay3 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  try sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem soutC0 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x512 .f32) (x1 : Vec F S16384x512 .bf16) (x2 : Vec F S512x512 .bf16) (x3 : Vec F S512x512 .bf16) (x4 : Vec F S1x512 .f32) (x5 : Vec F S1x512 .f32) (xs0 : Vec F S1024x512 .f32) (xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay4 x0 (View.ld x1 (Rect.unit (s := S16384x512) (k0_off1 i) S512x512.size (k0_off1_inb i))) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  try sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem soutC1 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x512 .f32) (x1 : Vec F S16384x512 .bf16) (x2 : Vec F S512x512 .bf16) (x3 : Vec F S512x512 .bf16) (x4 : Vec F S1x512 .f32) (x5 : Vec F S1x512 .f32) (xs0 : Vec F S1024x512 .f32) (xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay3 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  try sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

theorem outC6 (c : Dev nD) (i : grid0.Coords) (arg2 : Memref sig .tc .vmem S1024x512 .f32) (harg2 : arg2.IsWhole) (arg3 : Memref sig .tc .vmem S16384x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x1 .f32) (harg10 : arg10.IsWhole) (hc0 : ¬cond0_0 i) (hc1 : cond0_1 i)
    (x0 : Vec F S1024x512 .f32) (x1 : Vec F S16384x512 .bf16) (x2 : Vec F S512x512 .bf16) (x3 : Vec F S512x512 .bf16) (x4 : Vec F S1x512 .f32) (x5 : Vec F S1x512 .f32) (xs0 : Vec F S1024x512 .f32) (xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay5 (k0_pay3 x0 xs1) (k0_pay4 x0 (View.ld x1 (Rect.unit (s := S16384x512) (k0_off1 i) S512x512.size (k0_off1_inb i))) xs0) x2 x4
          (View.ld x1 (Rect.unit (s := S16384x512) (k0_off2 i) S1024x512.size (k0_off2_inb i hc1))) x3 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  try sl_unfold_words
  rw [View.canon_unit_zero hz]
  simp only [View.readCov_unit_zero (S := S1024x512) _ hz, View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x512) hz, View.ld_unit_zero (S := S1024x1) hz, View.ld_unit_zero (S := S512x512) hz, View.ld_unit_zero (S := S1x512) hz]

end Cert.Sage.Pieces

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«169291_j18614388261160_2_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«169291_j18614388261160_2_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.Payload.lean ====
/-
  The body's arithmetic read at one entry, over the extended reals.

  * the two reset values are zero everywhere;
  * the row-total step adds, to what the column held in row `p`, the sum of row `p` of the loaded adjacency block;
  * the neighbour-sum step adds, to what the block held at `(p, f)`, the inner product of row `p` of the adjacency block with
    column `f` of the loaded rows of the features (a rounding to a narrower format is the identity here);
  * the last step's output at `(p, o)` is the larger of zero and
    `(∑_f (total(p, f) / (rowtotal(p) + ε)) · Wn(f, o) + bn(o)) + (∑_f h(p, f) · Ws(f, o) + bs(o))`.
-/
import proofs.«169291_j18614388261160_2_alg».proof.Proof.Gen.KernelIdeal.Skeleton
import proofs.«169291_j18614388261160_2_alg».proof.Proof.LibDotCols
import proofs.«169291_j18614388261160_2_alg».proof.Proof.LibLaneRows
import proofs.«169291_j18614388261160_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Payload

open Idealize.ShloMosaic Idealize.ShloMosaic.ValueIdx Cert.KernelIdeal Cert.KernelIdeal.Gen

/-- The reset value of the neighbour sums is zero. -/
theorem pay1_apply (y : S1024x512.Idx) : k0_pay1 (F := Ideal) y = 0 := by
  unfold k0_pay1
  simp only [shapeCast_self]
  exact Ideal.ofBits_zero_f32

/-- The reset value of the row totals is zero. -/
theorem pay2_apply (y : S1024x1.Idx) : k0_pay2 (F := Ideal) y = 0 := by
  unfold k0_pay2
  simp only [shapeCast_self]
  exact Ideal.ofBits_zero_f32

/-- One step of the row totals: what the column held in row `p`, plus the sum of row `p` of the adjacency block. -/
theorem pay3_apply (v3 : FVec Ideal S1024x512 .f32) (v4 : FVec Ideal S1024x1 .f32) (p : Fin 1024) (u : Fin 1) :
    k0_pay3 (F := Ideal) v3 v4 (ix2 p u) = v4 (ix2 p u) + ∑ k : Fin 512, v3 (ix2 p k) := by
  unfold k0_pay3
  simp only [shapeCast_self]
  refine (addf_apply _ _ _).trans ?_
  refine congrArg (v4 (ix2 p u) + ·) ?_
  refine (shapeCast_a_a1_apply _ _ p u).trans ?_
  exact LaneRows.multiReduction_add_rows v3 _ _ _ _ p

/-- One step of the neighbour sums: what the block held at `(p, f)`, plus row `p` of the adjacency block times column `f` of
    the loaded feature rows. -/
theorem pay4_apply (v3 : FVec Ideal S1024x512 .f32) (v15 : FVec Ideal S512x512 .bf16) (v17 : FVec Ideal S1024x512 .f32)
    (p : Fin 1024) (f : Fin 512) :
    k0_pay4 (F := Ideal) v3 v15 v17 (ix2 p f) = v17 (ix2 p f) + ∑ k : Fin 512, v3 (ix2 p k) * v15 (ix2 k f) := by
  unfold k0_pay4
  simp only [shapeCast_self]
  refine (addf_apply _ _ _).trans ?_
  refine congrArg (v17 (ix2 p f) + ·) ?_
  exact Cert.Lib.DotCols.matmul_cols_apply _ rfl none (truncf .bf16 v3 bitsLt_bf16_f32) v15 p f

/-- The last step's output at `(p, o)`. -/
theorem pay5_apply (v26 : FVec Ideal S1024x1 .f32) (v29 : FVec Ideal S1024x512 .f32) (v33 : FVec Ideal S512x512 .bf16)
    (v36 : FVec Ideal S1x512 .f32) (v43 : FVec Ideal S1024x512 .bf16) (v45 : FVec Ideal S512x512 .bf16)
    (v48 : FVec Ideal S1x512 .f32) (p : Fin 1024) (o : Fin 512) :
    k0_pay5 (F := Ideal) v26 v29 v33 v36 v43 v45 v48 (ix2 p o)
      = max (((∑ f : Fin 512, Ideal.div (v29 (ix2 p f)) (v26 (ix2 p (0 : Fin 1)) + Ideal.ofBits .f32 0x3727C5AC#32) * v33 (ix2 f o))
              + v36 (ix2 (0 : Fin 1) o))
          + ((∑ f : Fin 512, v43 (ix2 p f) * v45 (ix2 f o)) + v48 (ix2 (0 : Fin 1) o))) (Ideal.ofBits .f32 0x00000000#32) := by
  unfold k0_pay5
  simp only [shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (Cert.Lib.DotCols.matmul_cols_apply _ rfl none _ v33 p o).trans ?_
      refine Finset.sum_congr rfl fun f _ => ?_
      refine congrArg (· * v33 (ix2 f o)) ?_
      refine (divf_apply _ _ _).trans ?_
      refine congrArg (Ideal.div (v29 (ix2 p f))) ?_
      refine (broadcastTo_a1_ab_apply _ _ p f).trans ?_
      rfl
    · exact broadcastTo_1b_ab_apply v36 _ p o
  · refine (addf_apply _ _ _).trans ?_
    refine congrArg₂ (· + ·) ?_ ?_
    · exact Cert.Lib.DotCols.matmul_cols_apply _ rfl none v43 v45 p o
    · exact broadcastTo_1b_ab_apply v48 _ p o

end Cert.Sage.Payload

end
-- ==== Proof.LibBlockSum.lean ====
/-
  General facts for setting a sum that is computed block by block beside the same sum computed in one pass.

  * `sum_range_blocks`: in any additive commutative monoid, the sum of `f` over the first `d · n` naturals is the sum,
    over the `n` consecutive blocks of length `d`, of each block's own sum. Only associativity and commutativity of
    the addition are used, so it holds on the extended reals, infinities included.
  * `at1`, `at2`: an array of rank one or two read at NATURAL coordinates — its entry when the coordinates are inside
    the extents, zero outside. With them a sum over positions of an array is a sum over naturals, and block offsets
    are plain arithmetic. `at1_eq` / `at2_eq`: at the coordinates of an index, they are the entry at that index.
-/
import Mathlib.Algebra.BigOperators.Intervals
import Mathlib.Algebra.BigOperators.Fin
import Idealize.ShloMosaic.Lib.ValueIdx

namespace Cert.LibBlockSum

open Finset Idealize.ShloMosaic Idealize.ShloMosaic.ValueIdx

/-- A sum over the first `d · n` naturals, regrouped into `n` consecutive blocks of `d` terms: position `d · s + k`
    is term `k` of block `s`. By induction on the number of blocks: the last block is split off the end of the range. -/
theorem sum_range_blocks {M : Type*} [AddCommMonoid M] (f : ℕ → M) (d : ℕ) :
    ∀ n : ℕ, ∑ i ∈ range (d * n), f i = ∑ s ∈ range n, ∑ k ∈ range d, f (d * s + k)
  | 0 => by simp
  | n + 1 => by
    rw [Nat.mul_succ, sum_range_add, sum_range_blocks f d n, sum_range_succ]

/-- A rank-1 array read at a natural coordinate: the entry there, or zero past the extent. -/
def at1 {M : Type*} [Zero M] {n : ℕ} (B : (⟨1, ![n]⟩ : Shape).Idx → M) (a : ℕ) : M :=
  if h : a < n then B (ix1 ⟨a, h⟩) else 0

/-- At the coordinate of an index, `at1` is the entry at that index. -/
theorem at1_eq {M : Type*} [Zero M] {n : ℕ} (B : (⟨1, ![n]⟩ : Shape).Idx → M) (i : (⟨1, ![n]⟩ : Shape).Idx) (a : ℕ)
    (ha : (i 0).val = a) : at1 B a = B i := by
  subst ha
  unfold at1
  rw [dif_pos (show (i 0).val < n from (i 0).isLt)]
  exact congrArg B (eq_ix1 i).symm

/-- A rank-2 array read at natural coordinates: the entry there, or zero outside the extents. -/
def at2 {M : Type*} [Zero M] {n0 n1 : ℕ} (A : (⟨2, ![n0, n1]⟩ : Shape).Idx → M) (a b : ℕ) : M :=
  if h : a < n0 ∧ b < n1 then A (ix2 ⟨a, h.1⟩ ⟨b, h.2⟩) else 0

/-- At the coordinates of an index, `at2` is the entry at that index. -/
theorem at2_eq {M : Type*} [Zero M] {n0 n1 : ℕ} (A : (⟨2, ![n0, n1]⟩ : Shape).Idx → M)
    (i : (⟨2, ![n0, n1]⟩ : Shape).Idx) (a b : ℕ) (ha : (i 0).val = a) (hb : (i 1).val = b) : at2 A a b = A i := by
  subst ha; subst hb
  unfold at2
  rw [dif_pos ⟨idx2_lt0 i, idx2_lt1 i⟩]
  exact congrArg A (eq_ix2 i).symm

end Cert.LibBlockSum
-- ==== Proof.Blocks.lean ====
/-
  The blocks the kernel body sees at a grid step, as entries of the arguments.

  Step `t` of the 16 × 32 grid works on row block `t / 32` and column block `t % 32`.  The adjacency window's block at that step
  is rows `1024·(t/32) …` and columns `512·(t%32) …` of the adjacency matrix.  The other five windows hold whole arrays at every step:
  the features (a change of float format is the identity on the extended reals), the two weight matrices transposed, and the two
  biases as one-row arrays.  The body itself cuts two row ranges out of the resident features: rows `512·(t%32) …` (the rows matching the
  adjacency block's columns) and, at the last step of a row block, rows `1024·(t/32) …` (the row block's own features).
  Entries are written with natural-number coordinates (zero outside the extents), so that block offsets are plain arithmetic.
-/
import proofs.«169291_j18614388261160_2_alg».proof.Proof.Gen.KernelIdeal.Frame
import proofs.«169291_j18614388261160_2_alg».proof.Proof.LibBlockSum
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.Sage.Blocks

open Cert.KernelIdeal Cert.KernelIdeal.Gen Cert.LibBlockSum

variable (m : (ℓ : Loc nD τ sig) → Buf (Elt Ideal) ℓ)

/-- The adjacency matrix, the features, the two weight matrices and the two biases, as the kernel's program is launched with them. -/
abbrev adj (c : Dev nD) : FVec Ideal S16384x16384 .f32 := m ((c : Thread nD τ).loc main_arg1)
abbrev feat (c : Dev nD) : FVec Ideal S16384x512 .f32 := m ((c : Thread nD τ).loc main_arg0)
abbrev wN (c : Dev nD) : FVec Ideal S512x512 .f32 := m ((c : Thread nD τ).loc main_arg2)
abbrev bN (c : Dev nD) : FVec Ideal S512 .f32 := m ((c : Thread nD τ).loc main_arg3)
abbrev wS (c : Dev nD) : FVec Ideal S512x512 .f32 := m ((c : Thread nD τ).loc main_arg4)
abbrev bS (c : Dev nD) : FVec Ideal S512 .f32 := m ((c : Thread nD τ).loc main_arg5)

/-! ## The index maps and the in-body offsets, decided once over the grid's 512 steps -/

theorem idx0 : ∀ t : Fin cfg0.N, win0_0.index t 0 = t.val / 32 ∧ win0_0.index t 1 = t.val % 32 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = t.val / 32 ∧ win0_6.index t 1 = 0 := by decide +kernel
theorem off1 : ∀ t : Fin cfg0.N, k0_off1 (grid0.coords t) 0 = 512 * (t.val % 32) ∧ k0_off1 (grid0.coords t) 1 = 0 := by decide +kernel
theorem off2 : ∀ t : Fin cfg0.N, k0_off2 (grid0.coords t) 0 = 1024 * (t.val / 32) ∧ k0_off2 (grid0.coords t) 1 = 0 := by decide +kernel

/-! ## The arrays the region finds -/

/-- The resident features are the features argument: the change of format before the region is the identity. -/
theorem v0_eq (c : Dev nD) : (V m c main_v0 : S16384x512.Idx → EReal) = feat m c := by
  dsimp only [V, hostOps0]
  after_results
  rfl

/-- The first weight window's array is the first weight matrix transposed. -/
theorem v2_apply (c : Dev nD) (f o : Fin 512) : (V m c main_v2 : S512x512.Idx → EReal) (ix2 f o) = wN m c (ix2 o f) := by
  dsimp only [V, hostOps0]
  after_results
  exact transpose_ix2_apply (wN m c) transposes_S512x512_S512x512_1_0 f o

/-- The second weight window's array is the second weight matrix transposed. -/
theorem v4_apply (c : Dev nD) (f o : Fin 512) : (V m c main_v4 : S512x512.Idx → EReal) (ix2 f o) = wS m c (ix2 o f) := by
  dsimp only [V, hostOps0]
  after_results
  exact transpose_ix2_apply (wS m c) transposes_S512x512_S512x512_1_0 f o

/-- The first bias window's array is the first bias as one row. -/
theorem v5_apply (c : Dev nD) (u : Fin 1) (o : Fin 512) : (V m c main_v5 : S1x512.Idx → EReal) (ix2 u o) = bN m c (ix1 o) := by
  dsimp only [V, hostOps0]
  after_results
  exact shapeCast_a_1a_apply (bN m c) shapeCasts_S512_S1x512 u o

/-- The second bias window's array is the second bias as one row. -/
theorem v6_apply (c : Dev nD) (u : Fin 1) (o : Fin 512) : (V m c main_v6 : S1x512.Idx → EReal) (ix2 u o) = bS m c (ix1 o) := by
  dsimp only [V, hostOps0]
  after_results
  exact shapeCast_a_1a_apply (bS m c) shapeCasts_S512_S1x512 u o

/-! ## The windows' blocks -/

/-- The adjacency block of step `t` at `(p, k)`: the adjacency matrix at row `1024·(t/32) + p`, column `512·(t%32) + k`. -/
theorem iblk0_at (c : Dev nD) (t : Fin cfg0.N) (p : Fin 1024) (k : Fin 512) :
    (iblk m c 0 t : Vec Ideal S1024x512 .f32) (ix2 p k)
      = at2 (M := EReal) (adj m c) (1024 * (t.val / 32) + p.val) (512 * (t.val % 32) + k.val) := by
  unfold iblk
  rw [View.read_apply]
  show V m c main_arg1 (((cfg0.win 0).blk t).view.emb (ix2 p k)) = _
  rw [V_main_arg1]
  refine (at2_eq (adj m c) _ _ _ ?_ ?_).symm
  · show win0_0.index t 0 * 1024 + 1 * p.val = _
    rw [(idx0 t).1]; omega
  · show win0_0.index t 1 * 512 + 1 * k.val = _
    rw [(idx0 t).2]; omega

/-- The features window holds the whole features at every step. -/
theorem iblk1_eq (c : Dev nD) (t : Fin cfg0.N) : (iblk m c 1 t : Vec Ideal S16384x512 .bf16) = feat m c := by
  funext j
  unfold iblk
  rw [View.read_apply]
  show V m c main_v0 (((cfg0.win 1).blk t).view.emb j) = _
  refine (congrFun (v0_eq m c) _).trans (congrArg (feat m c) (funext fun ax => Fin.ext ?_))
  match ax with
  | ⟨0, _⟩ => show win0_1.index t 0 * 16384 + 1 * (j 0).val = (j 0).val; rw [(idx1 t).1]; omega
  | ⟨1, _⟩ => show win0_1.index t 1 * 512 + 1 * (j 1).val = (j 1).val; rw [(idx1 t).2]; omega

/-- The first weight window's block at `(f, o)` is the first weight matrix at `(o, f)`. -/
theorem iblk2_apply (c : Dev nD) (t : Fin cfg0.N) (f o : Fin 512) :
    (iblk m c 2 t : Vec Ideal S512x512 .bf16) (ix2 f o) = wN m c (ix2 o f) := by
  unfold iblk
  rw [View.read_apply]
  show V m c main_v2 (((cfg0.win 2).blk t).view.emb (ix2 f o)) = _
  refine (congrArg (V m c main_v2 : S512x512.Idx → EReal) (funext fun ax => Fin.ext ?_)).trans (v2_apply m c f o)
  match ax with
  | ⟨0, _⟩ => show win0_2.index t 0 * 512 + 1 * f.val = f.val; rw [(idx2 t).1]; omega
  | ⟨1, _⟩ => show win0_2.index t 1 * 512 + 1 * o.val = o.val; rw [(idx2 t).2]; omega

/-- The second weight window's block at `(f, o)` is the second weight matrix at `(o, f)`. -/
theorem iblk3_apply (c : Dev nD) (t : Fin cfg0.N) (f o : Fin 512) :
    (iblk m c 3 t : Vec Ideal S512x512 .bf16) (ix2 f o) = wS m c (ix2 o f) := by
  unfold iblk
  rw [View.read_apply]
  show V m c main_v4 (((cfg0.win 3).blk t).view.emb (ix2 f o)) = _
  refine (congrArg (V m c main_v4 : S512x512.Idx → EReal) (funext fun ax => Fin.ext ?_)).trans (v4_apply m c f o)
  match ax with
  | ⟨0, _⟩ => show win0_3.index t 0 * 512 + 1 * f.val = f.val; rw [(idx3 t).1]; omega
  | ⟨1, _⟩ => show win0_3.index t 1 * 512 + 1 * o.val = o.val; rw [(idx3 t).2]; omega

/-- The first bias window's block at `(0, o)` is the first bias at `o`. -/
theorem iblk4_apply (c : Dev nD) (t : Fin cfg0.N) (u : Fin 1) (o : Fin 512) :
    (iblk m c 4 t : Vec Ideal S1x512 .f32) (ix2 u o) = bN m c (ix1 o) := by
  unfold iblk
  rw [View.read_apply]
  show V m c main_v5 (((cfg0.win 4).blk t).view.emb (ix2 u o)) = _
  refine (congrArg (V m c main_v5 : S1x512.Idx → EReal) (funext fun ax => Fin.ext ?_)).trans (v5_apply m c u o)
  match ax with
  | ⟨0, _⟩ => show win0_4.index t 0 * 1 + 1 * u.val = u.val; rw [(idx4 t).1]; omega
  | ⟨1, _⟩ => show win0_4.index t 1 * 512 + 1 * o.val = o.val; rw [(idx4 t).2]; omega

/-- The second bias window's block at `(0, o)` is the second bias at `o`. -/
theorem iblk5_apply (c : Dev nD) (t : Fin cfg0.N) (u : Fin 1) (o : Fin 512) :
    (iblk m c 5 t : Vec Ideal S1x512 .f32) (ix2 u o) = bS m c (ix1 o) := by
  unfold iblk
  rw [View.read_apply]
  show V m c main_v6 (((cfg0.win 5).blk t).view.emb (ix2 u o)) = _
  refine (congrArg (V m c main_v6 : S1x512.Idx → EReal) (funext fun ax => Fin.ext ?_)).trans (v6_apply m c u o)
  match ax with
  | ⟨0, _⟩ => show win0_5.index t 0 * 1 + 1 * u.val = u.val; rw [(idx5 t).1]; omega
  | ⟨1, _⟩ => show win0_5.index t 1 * 512 + 1 * o.val = o.val; rw [(idx5 t).2]; omega

/-! ## The two row ranges the body cuts out of the resident features -/

/-- A run of consecutive rows and columns of a rank-2 array, read at an entry: the array at the offsets plus the entry's coordinates. -/
theorem ld_unit_at2 {n0 n1 s0 s1 : ℕ} (X : Vec Ideal ⟨2, ![n0, n1]⟩ .bf16) (off : Fin 2 → Nat)
    (inb : ∀ a, off a + (![s0, s1] : Fin 2 → Nat) a ≤ (⟨2, ![n0, n1]⟩ : Shape).size a) (k : Fin s0) (f : Fin s1) :
    View.ld X (Rect.unit (s := ⟨2, ![n0, n1]⟩) off ![s0, s1] inb) (ix2 k f) = at2 (M := EReal) X (off 0 + k.val) (off 1 + f.val) :=
  (at2_eq (M := EReal) X _ _ _ (by show off 0 + 1 * k.val = _; omega) (by show off 1 + 1 * f.val = _; omega)).symm

/-- The feature rows matching the adjacency block's columns, at `(k, f)`: the features at row `512·(t%32) + k`, column `f`. -/
theorem hk_at (c : Dev nD) (t : Fin cfg0.N) (k f : Fin 512) :
    View.ld (iblk m c 1 t : Vec Ideal S16384x512 .bf16)
        (Rect.unit (s := S16384x512) (k0_off1 (grid0.coords t)) S512x512.size (k0_off1_inb (grid0.coords t))) (ix2 k f)
      = at2 (M := EReal) (feat m c) (512 * (t.val % 32) + k.val) f.val := by
  rw [iblk1_eq m c t]
  refine (ld_unit_at2 (feat m c) _ _ k f).trans ?_
  rw [(off1 t).1, (off1 t).2, Nat.zero_add]

/-- The row block's own features, at `(p, f)`: the features at row `1024·(t/32) + p`, column `f`. -/
theorem hself_at (c : Dev nD) (t : Fin cfg0.N) (h : cond0_1 (grid0.coords t)) (p : Fin 1024) (f : Fin 512) :
    View.ld (iblk m c 1 t : Vec Ideal S16384x512 .bf16)
        (Rect.unit (s := S16384x512) (k0_off2 (grid0.coords t)) S1024x512.size (k0_off2_inb (grid0.coords t) h)) (ix2 p f)
      = at2 (M := EReal) (feat m c) (1024 * (t.val / 32) + p.val) f.val := by
  rw [iblk1_eq m c t]
  refine (ld_unit_at2 (feat m c) _ _ p f).trans ?_
  rw [(off2 t).1, (off2 t).2, Nat.zero_add]

end Cert.Sage.Blocks

end
-- ==== Proof.Fold.lean ====
/-
  The two running totals after any grid step, entry by entry.

  Within a row block (32 consecutive grid steps) the neighbour-sum block starts from zero at the first step and receives at every
  step the product of that step's adjacency block with the matching feature rows; the row-total column likewise receives the row sums
  of that step's adjacency block.  So after step `t` an entry holds zero plus the sum, over the steps of the row block up to `t`,
  of the steps' contributions — the generated fold of the carried buffers, unrolled once by the library's additive-fold lemma.
-/
import proofs.«169291_j18614388261160_2_alg».proof.Proof.Gen.KernelIdeal.Value
import proofs.«169291_j18614388261160_2_alg».proof.Proof.Pieces
import proofs.«169291_j18614388261160_2_alg».proof.Proof.Payload
import proofs.«169291_j18614388261160_2_alg».proof.Proof.Blocks
import proofs.«169291_j18614388261160_2_alg».proof.Proof.LibBlockSum
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx

namespace Cert.Sage.Fold

open Cert.KernelIdeal Cert.KernelIdeal.Gen Cert.KernelIdeal.Value Cert.LibBlockSum
open Cert.Sage.Blocks Cert.Sage.Pieces Cert.Sage.Payload

variable (m : (ℓ : Loc nD τ sig) → Buf (Elt Ideal) ℓ)

/-- Step `n`'s contribution to the neighbour sums at a block entry `(p, f)`: row `1024·(n/32) + p` of the adjacency matrix, restricted to
    the columns `512·(n%32) …`, times the matching rows of column `f` of the features. -/
def Macc (A : FVec Ideal S16384x16384 .f32) (H : FVec Ideal S16384x512 .f32) (n : ℕ) (y : S1024x512.Idx) : EReal :=
  ∑ k : Fin 512, at2 (M := EReal) A (1024 * (n / 32) + (y 0).val) (512 * (n % 32) + k.val)
    * at2 (M := EReal) H (512 * (n % 32) + k.val) (y 1).val

/-- Step `n`'s contribution to the row totals at row `p` of the block: the sum of that row over the columns `512·(n%32) …`. -/
def Mdeg (A : FVec Ideal S16384x16384 .f32) (n : ℕ) (y : S1024x1.Idx) : EReal :=
  ∑ k : Fin 512, at2 (M := EReal) A (1024 * (n / 32) + (y 0).val) (512 * (n % 32) + k.val)

/-- The neighbour-sum step at a grid step, at an entry: what was there plus the step's contribution. -/
theorem pay4_point (c : Dev nD) (t : Fin cfg0.N) (acc : FVec Ideal S1024x512 .f32) (y : S1024x512.Idx) :
    k0_pay4 (F := Ideal) (iblk m c 0 t)
        (View.ld (iblk m c 1 t : Vec Ideal S16384x512 .bf16)
          (Rect.unit (s := S16384x512) (k0_off1 (grid0.coords t)) S512x512.size (k0_off1_inb (grid0.coords t)))) acc y
      = acc y + Macc (adj m c) (feat m c) t.val y := by
  obtain ⟨p, f, rfl⟩ : ∃ (p : Fin 1024) (f : Fin 512), y = ix2 p f := ⟨y 0, y 1, eq_ix2 y⟩
  refine (pay4_apply _ _ acc p f).trans ?_
  refine congrArg (acc (ix2 p f) + ·) (Finset.sum_congr rfl fun k _ => ?_)
  rw [iblk0_at m c t p k, hk_at m c t k f]

/-- The row-total step at a grid step, at an entry. -/
theorem pay3_point (c : Dev nD) (t : Fin cfg0.N) (acc : FVec Ideal S1024x1 .f32) (y : S1024x1.Idx) :
    k0_pay3 (F := Ideal) (iblk m c 0 t) acc y = acc y + Mdeg (adj m c) t.val y := by
  obtain ⟨p, u, rfl⟩ : ∃ (p : Fin 1024) (u : Fin 1), y = ix2 p u := ⟨y 0, y 1, eq_ix2 y⟩
  refine (pay3_apply _ acc p u).trans ?_
  refine congrArg (acc (ix2 p u) + ·) (Finset.sum_congr rfl fun k _ => ?_)
  exact iblk0_at m c t p k

/-- At the first step of a row block the neighbour sums are reset: zero plus the step's contribution. -/
theorem scAt0_0_reset (c : Dev nD) (n : ℕ) (hb : n < cfg0.N) (h0 : n % 32 = 0) (acc : Vec Ideal S1024x512 .f32)
    (y : S1024x512.Idx) : scAt0_0 m c n hb acc y = 0 + Macc (adj m c) (feat m c) n y := by
  have h1 : ¬ n % 32 = 31 := by omega
  unfold scAt0_0
  rw [dif_pos h0, dif_neg h1, soutA0]
  refine (pay4_point m c ⟨n, hb⟩ _ y).trans ?_
  rw [pay1_apply]

/-- At every other step they receive the step's contribution. -/
theorem scAt0_0_step (c : Dev nD) (n : ℕ) (hb : n < cfg0.N) (h0 : ¬ n % 32 = 0) (acc : Vec Ideal S1024x512 .f32)
    (y : S1024x512.Idx) : scAt0_0 m c n hb acc y = acc y + Macc (adj m c) (feat m c) n y := by
  unfold scAt0_0
  rw [dif_neg h0]
  split_ifs with h1
  · rw [soutC0]; exact pay4_point m c ⟨n, hb⟩ acc y
  · rw [soutB0]; exact pay4_point m c ⟨n, hb⟩ acc y

/-- The same two facts for the row totals. -/
theorem scAt0_1_reset (c : Dev nD) (n : ℕ) (hb : n < cfg0.N) (h0 : n % 32 = 0) (acc : Vec Ideal S1024x1 .f32)
    (y : S1024x1.Idx) : scAt0_1 m c n hb acc y = 0 + Mdeg (adj m c) n y := by
  have h1 : ¬ n % 32 = 31 := by omega
  unfold scAt0_1
  rw [dif_pos h0, dif_neg h1, soutA1]
  refine (pay3_point m c ⟨n, hb⟩ _ y).trans ?_
  rw [pay2_apply]

theorem scAt0_1_step (c : Dev nD) (n : ℕ) (hb : n < cfg0.N) (h0 : ¬ n % 32 = 0) (acc : Vec Ideal S1024x1 .f32)
    (y : S1024x1.Idx) : scAt0_1 m c n hb acc y = acc y + Mdeg (adj m c) n y := by
  unfold scAt0_1
  rw [dif_neg h0]
  split_ifs with h1
  · rw [soutC1]; exact pay3_point m c ⟨n, hb⟩ acc y
  · rw [soutB1]; exact pay3_point m c ⟨n, hb⟩ acc y

/-- THE NEIGHBOUR SUMS after step `t`: zero plus the contributions of the row block's steps up to `t`. -/
theorem acc_at (c : Dev nD) (t : Fin cfg0.N) (y : S1024x512.Idx) :
    (outsAt0 m c t.val t.isLt).2.1 y
      = 0 + ∑ s ∈ Finset.range (t.val % 32 + 1), Macc (adj m c) (feat m c) (32 * (t.val / 32) + s) y := by
  rw [soutsAt0_0_eq m c t]
  exact Pipeline.accAt_add_apply (fun n h => scAt0_0 m c n h (VS0_0.read (Elt Ideal) VS0_0.junk)) (scAt0_0 m c)
    (fun _ => 0) (Macc (adj m c) (feat m c)) (32 * (t.val / 32)) 31
    (fun h i => scAt0_0_reset m c _ h (by omega) _ i)
    (fun n h acc i hbn hne => scAt0_0_step m c n h (by omega) acc i)
    (t.val % 32) (by omega) _ y

/-- THE ROW TOTALS after step `t`. -/
theorem deg_at (c : Dev nD) (t : Fin cfg0.N) (y : S1024x1.Idx) :
    (outsAt0 m c t.val t.isLt).2.2 y
      = 0 + ∑ s ∈ Finset.range (t.val % 32 + 1), Mdeg (adj m c) (32 * (t.val / 32) + s) y := by
  rw [soutsAt0_1_eq m c t]
  exact Pipeline.accAt_add_apply (fun n h => scAt0_1 m c n h (VS0_1.read (Elt Ideal) VS0_1.junk)) (scAt0_1 m c)
    (fun _ => 0) (Mdeg (adj m c)) (32 * (t.val / 32)) 31
    (fun h i => scAt0_1_reset m c _ h (by omega) _ i)
    (fun n h acc i hbn hne => scAt0_1_step m c n h (by omega) acc i)
    (t.val % 32) (by omega) _ y

/-- At the last step of a row block the output block is the epilogue applied to the two totals AFTER that step. -/
theorem out_last (c : Dev nD) (t : Fin cfg0.N) (h0 : ¬ t.val % 32 = 0) (h1 : t.val % 32 = 31) :
    (outsAt0 m c t.val t.isLt).1
      = k0_pay5 (F := Ideal) (outsAt0 m c t.val t.isLt).2.2 (outsAt0 m c t.val t.isLt).2.1 (iblk m c 2 t) (iblk m c 4 t)
          (View.ld (iblk m c 1 t : Vec Ideal S16384x512 .bf16)
            (Rect.unit (s := S16384x512) (k0_off2 (grid0.coords t)) S1024x512.size (k0_off2_inb (grid0.coords t) ((hcond0_1 t).mpr h1))))
          (iblk m c 3 t) (iblk m c 5 t) := by
  rw [outsAt0_C m c t h0 h1]
  dsimp only
  rw [outC6, soutC0, soutC1]
  rfl

end Cert.Sage.Fold

end
-- ==== Proof.RefRead.lean ====
/-
  The reference's result read at one entry, over the extended reals.

  At `(r, o)` the reference holds the larger of zero and
  `((∑_f (∑_c (a(r, c) / D(r)) · h(c, f)) · Wn(o, f) + bn(o)) + ∑_f h(r, f) · Ws(o, f)) + bs(o)`,
  where `D(r)`, the number every entry of row `r` of the adjacency matrix is divided by, is `(0 + ∑_c a(r, c)) + ε`.
  Each line of the reference is read at an index by its generated lemma; what is added here is only that the composed index maps
  are the coordinate pairs one expects.
-/
import proofs.«169291_j18614388261160_2_alg».proof.Proof.Gen.ReferenceIdeal.Read
import Idealize.ShloMosaic.Lib.ValueIdx
import Idealize.ShloMosaic.PureOps.Ideal.Laws

noncomputable section

open scoped BigOperators

namespace Cert.Sage.RefRead

open Idealize.ShloMosaic Idealize.ShloMosaic.ValueIdx Cert.ReferenceIdeal Cert.ReferenceIdeal.Read

/-! ## The composed index maps at coordinates -/

theorem e8l (r : Fin 16384) (o k : Fin 512) : lidx_main_v8 (ix2 r o) k = ix2 r k :=
  funext fun a => Fin.ext (by match a with | ⟨0, _⟩ => rfl | ⟨1, _⟩ => rfl)
theorem e8r (r : Fin 16384) (o k : Fin 512) : ridx_main_v8 (ix2 r o) k = ix2 k o :=
  funext fun a => Fin.ext (by match a with | ⟨0, _⟩ => rfl | ⟨1, _⟩ => rfl)
theorem e7 (k o : Fin 512) : idx_main_v7 (ix2 k o) = ix2 o k :=
  funext fun a => Fin.ext (by match a with | ⟨0, _⟩ => rfl | ⟨1, _⟩ => rfl)
theorem e6l (r : Fin 16384) (f : Fin 512) (c : Fin 16384) : lidx_main_v6 (ix2 r f) c = ix2 r c :=
  funext fun a => Fin.ext (by match a with | ⟨0, _⟩ => rfl | ⟨1, _⟩ => rfl)
theorem e6r (r : Fin 16384) (f : Fin 512) (c : Fin 16384) : ridx_main_v6 (ix2 r f) c = ix2 c f :=
  funext fun a => Fin.ext (by match a with | ⟨0, _⟩ => rfl | ⟨1, _⟩ => rfl)
theorem e4 (r c : Fin 16384) : idx_main_v4 (ix2 r c) = ix2 r (0 : Fin 1) :=
  funext fun a => Fin.ext (by match a with | ⟨0, _⟩ => rfl | ⟨1, _⟩ => rfl)
theorem e13l (r : Fin 16384) (o k : Fin 512) : lidx_main_v13 (ix2 r o) k = ix2 r k :=
  funext fun a => Fin.ext (by match a with | ⟨0, _⟩ => rfl | ⟨1, _⟩ => rfl)
theorem e13r (r : Fin 16384) (o k : Fin 512) : ridx_main_v13 (ix2 r o) k = ix2 k o :=
  funext fun a => Fin.ext (by match a with | ⟨0, _⟩ => rfl | ⟨1, _⟩ => rfl)
theorem e12 (k o : Fin 512) : idx_main_v12 (ix2 k o) = ix2 o k :=
  funext fun a => Fin.ext (by match a with | ⟨0, _⟩ => rfl | ⟨1, _⟩ => rfl)
theorem e10 (r : Fin 16384) (o : Fin 512) : idx_main_v9 (idx_main_v10 (ix2 r o)) = ix1 o :=
  funext fun a => Fin.ext (by match a with | ⟨0, _⟩ => rfl)
theorem e16 (r : Fin 16384) (o : Fin 512) : idx_main_v15 (idx_main_v16 (ix2 r o)) = ix1 o :=
  funext fun a => Fin.ext (by match a with | ⟨0, _⟩ => rfl)
theorem e1 (r : Fin 16384) (u : Fin 1) : idx_main_v1 (ix2 r u) = ix1 r :=
  funext fun a => Fin.ext (by match a with | ⟨0, _⟩ => rfl)
theorem e0 (r k : Fin 16384) : idx_main_v0 (ix1 r) k = ix2 r k :=
  funext fun a => Fin.ext (by match a with | ⟨0, _⟩ => rfl | ⟨1, _⟩ => rfl)

/-! ## The divisor of a row, and the result at an entry -/

/-- Row `r`'s divisor: zero plus the row's total, plus the small constant. -/
theorem divisor_apply (x1 : FVec Ideal S16384x16384 .f32) (r : Fin 16384) (u : Fin 1) :
    val_main_v3 (F := Ideal) x1 (ix2 r u)
      = (Ideal.ofBits .f32 0x00000000#32 + ∑ k : Fin 16384, x1 (ix2 r k)) + Ideal.ofBits .f32 0x3727C5AC#32 := by
  rw [val_main_v3_apply, val_main_v1_apply, val_main_v0_apply, val_main_v2_apply, val_main_cst_0_apply, val_main_cst_apply]
  simp only [e1, e0]
  rfl

/-- THE REFERENCE AT AN ENTRY. -/
theorem result_apply (x0 : FVec Ideal S16384x512 .f32) (x1 : FVec Ideal S16384x16384 .f32) (x2 : FVec Ideal S512x512 .f32)
    (x3 : FVec Ideal S512 .f32) (x4 : FVec Ideal S512x512 .f32) (x5 : FVec Ideal S512 .f32) (r : Fin 16384) (o : Fin 512) :
    val_main_v18 (F := Ideal) x0 x1 x2 x3 x4 x5 (ix2 r o)
      = max ((((∑ f : Fin 512, (∑ c : Fin 16384, Ideal.div (x1 (ix2 r c)) (val_main_v3 (F := Ideal) x1 (ix2 r (0 : Fin 1))) * x0 (ix2 c f))
                  * x2 (ix2 o f)) + x3 (ix1 o))
              + ∑ f : Fin 512, x0 (ix2 r f) * x4 (ix2 o f)) + x5 (ix1 o)) (Ideal.ofBits .f32 0x00000000#32) := by
  rw [val_main_v18_apply, val_main_v17_apply, val_main_v14_apply, val_main_v11_apply, val_main_v8_apply, val_main_v13_apply,
    val_main_v10_apply, val_main_v9_apply, val_main_v16_apply, val_main_v15_apply, val_main_call0_v0_apply,
    val_main_call0_cst_apply]
  simp only [e8l, e8r, e13l, e13r, e10, e16, val_main_v7_apply, val_main_v12_apply, e7, e12, val_main_v6_apply, e6l, e6r,
    val_main_v5_apply, val_main_v4_apply, e4]
  rfl

end Cert.Sage.RefRead

end
-- ==== Proof.KernelValue.lean ====
/-
  The kernel's result array is the reference's result, entry by entry.

  Take an entry `(r, o)`, `r = 1024·q + p`.  It is written once, at the last of the 32 grid steps of row block `q`.  By then
  * the neighbour sums at `(p, f)` hold `∑_c a(r, c) · h(c, f)` — the 32 steps' column blocks of row `r` make up the whole row;
  * the row total at `p` holds `∑_c a(r, c)`, so that the kernel's divisor `(row total) + ε` is the reference's `D(r)`.
  The kernel divides the neighbour sum by `D(r)`; the reference divides every `a(r, c)` by `D(r)` before summing.  For real
  entries and `D(r) ≠ 0` these agree (the law of real sums), and the rest of the two formulas differ only by the
  grouping of a sum of four terms.  The blocks written at the last steps of the 16 row blocks tile the result array.
-/
import proofs.«169291_j18614388261160_2_alg».proof.Proof.Gen.KernelIdeal.Value
import proofs.«169291_j18614388261160_2_alg».proof.Proof.LibRealSums
import proofs.«169291_j18614388261160_2_alg».proof.Proof.Fold
import proofs.«169291_j18614388261160_2_alg».proof.Proof.RefRead
import proofs.«169291_j18614388261160_2_alg».proof.Proof.LibBlockSum
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.Sage.KernelValue

open Cert.KernelIdeal Cert.KernelIdeal.Gen Cert.LibBlockSum
open Cert.Lib.RealSums Cert.Sage.Blocks Cert.Sage.Payload Cert.Sage.Fold

variable (m : (ℓ : Loc nD τ sig) → Buf (Elt Ideal) ℓ) (ρ : Dev nD → PrngReg)

/-- The reference's result of the arguments the kernel's program is launched with. -/
abbrev result (c : Dev nD) : Buf (Elt Ideal) ((c : Thread nD τ).loc main_v7) :=
  Cert.ReferenceIdeal.Read.val_main_v18 (F := Ideal) (feat m c) (adj m c) (wN m c) (bN m c) (wS m c) (bS m c)

/-- The reference's divisor of row `r`. -/
abbrev divisor (c : Dev nD) (r : Fin 16384) : EReal :=
  Cert.ReferenceIdeal.Read.val_main_v3 (F := Ideal) (adj m c) (ix2 r (0 : Fin 1))

/-! ## The 32 column blocks of a row make up the row -/

theorem sum_steps (q : ℕ) (G : ℕ → EReal) :
    ∑ s ∈ Finset.range 32, ∑ k : Fin 512, G (512 * ((32 * q + s) % 32) + k.val) = ∑ j : Fin 16384, G j.val := by
  rw [Fin.sum_univ_eq_sum_range G 16384, show (16384 : ℕ) = 512 * 32 from rfl, sum_range_blocks G 512 32]
  refine Finset.sum_congr rfl fun s hs => ?_
  have hs' : s < 32 := Finset.mem_range.mp hs
  have e2 : (32 * q + s) % 32 = s := by omega
  rw [e2, Fin.sum_univ_eq_sum_range (fun k => G (512 * s + k)) 512]

/-- After the last step of a row block the neighbour sums at `(p, f)` are row `r` of the adjacency matrix times column `f` of the features. -/
theorem acc_row (c : Dev nD) (t : Fin cfg0.N) (h1 : t.val % 32 = 31) (p : Fin 1024) (f : Fin 512) (r : Fin 16384)
    (hr : r.val = 1024 * (t.val / 32) + p.val) :
    (outsAt0 m c t.val t.isLt).2.1 (ix2 p f) = ∑ j : Fin 16384, adj m c (ix2 r j) * feat m c (ix2 j f) := by
  have e32 : t.val % 32 + 1 = 32 := by omega
  rw [acc_at m c t (ix2 p f), e32, zero_add]
  have hM : ∀ s ∈ Finset.range 32, Macc (adj m c) (feat m c) (32 * (t.val / 32) + s) (ix2 p f)
      = ∑ k : Fin 512, (fun j => at2 (M := EReal) (adj m c) (1024 * (t.val / 32) + p.val) j * at2 (M := EReal) (feat m c) j f.val)
          (512 * ((32 * (t.val / 32) + s) % 32) + k.val) := by
    intro s hs
    have hs' : s < 32 := Finset.mem_range.mp hs
    have e1 : (32 * (t.val / 32) + s) / 32 = t.val / 32 := by omega
    unfold Macc
    rw [e1]
  rw [Finset.sum_congr rfl hM]
  refine (sum_steps (t.val / 32)
    (fun j => at2 (M := EReal) (adj m c) (1024 * (t.val / 32) + p.val) j * at2 (M := EReal) (feat m c) j f.val)).trans ?_
  refine Finset.sum_congr rfl fun j _ => ?_
  show at2 (M := EReal) (adj m c) (1024 * (t.val / 32) + p.val) j.val * at2 (M := EReal) (feat m c) j.val f.val = _
  rw [at2_eq (adj m c) (ix2 r j) _ _ hr rfl, at2_eq (feat m c) (ix2 j f) _ _ rfl rfl]

/-- … and the row total at `p` is the total of row `r`. -/
theorem deg_row (c : Dev nD) (t : Fin cfg0.N) (h1 : t.val % 32 = 31) (p : Fin 1024) (u : Fin 1) (r : Fin 16384)
    (hr : r.val = 1024 * (t.val / 32) + p.val) :
    (outsAt0 m c t.val t.isLt).2.2 (ix2 p u) = ∑ j : Fin 16384, adj m c (ix2 r j) := by
  have e32 : t.val % 32 + 1 = 32 := by omega
  rw [deg_at m c t (ix2 p u), e32, zero_add]
  have hM : ∀ s ∈ Finset.range 32, Mdeg (adj m c) (32 * (t.val / 32) + s) (ix2 p u)
      = ∑ k : Fin 512, (fun j => at2 (M := EReal) (adj m c) (1024 * (t.val / 32) + p.val) j)
          (512 * ((32 * (t.val / 32) + s) % 32) + k.val) := by
    intro s hs
    have hs' : s < 32 := Finset.mem_range.mp hs
    have e1 : (32 * (t.val / 32) + s) / 32 = t.val / 32 := by omega
    unfold Mdeg
    rw [e1]
  rw [Finset.sum_congr rfl hM]
  refine (sum_steps (t.val / 32) (fun j => at2 (M := EReal) (adj m c) (1024 * (t.val / 32) + p.val) j)).trans ?_
  refine Finset.sum_congr rfl fun j _ => ?_
  show at2 (M := EReal) (adj m c) (1024 * (t.val / 32) + p.val) j.val = _
  rw [at2_eq (adj m c) (ix2 r j) _ _ hr rfl]

/-! ## The block written at the last step of a row block, entry by entry -/

/-- THE ENTRY. What the last step of row block `q` leaves at `(p, o)` of the output block is the reference's result at
    `(1024·q + p, o)`, for real adjacency and feature entries and a nonzero divisor of that row. -/
theorem out_entry (c : Dev nD) (t : Fin cfg0.N) (h0 : ¬ t.val % 32 = 0) (h1 : t.val % 32 = 31) (p : Fin 1024) (o : Fin 512)
    (r : Fin 16384) (hr : r.val = 1024 * (t.val / 32) + p.val)
    (hA : ∀ i, Fin' (adj m c i)) (hH : ∀ i, Fin' (feat m c i)) (hD : divisor m c r ≠ 0) :
    (outsAt0 m c t.val t.isLt).1 (ix2 p o) = result m c (ix2 r o) := by
  rw [out_last m c t h0 h1]
  refine Eq.trans ?_ (RefRead.result_apply (feat m c) (adj m c) (wN m c) (bN m c) (wS m c) (bS m c) r o).symm
  refine (pay5_apply _ _ _ _ _ _ _ p o).trans ?_
  refine congrArg (max · _) ?_
  have hdiv : (outsAt0 m c t.val t.isLt).2.2 (ix2 p (0 : Fin 1)) + Ideal.ofBits .f32 0x3727C5AC#32 = divisor m c r := by
    rw [deg_row m c t h1 p 0 r hr]
    show _ = Cert.ReferenceIdeal.Read.val_main_v3 (F := Ideal) (adj m c) (ix2 r (0 : Fin 1))
    rw [RefRead.divisor_apply, Ideal.ofBits_zero_f32, zero_add]
  have key : ∀ f : Fin 512,
      Ideal.div ((outsAt0 m c t.val t.isLt).2.1 (ix2 p f))
          ((outsAt0 m c t.val t.isLt).2.2 (ix2 p (0 : Fin 1)) + Ideal.ofBits .f32 0x3727C5AC#32)
        = ∑ j : Fin 16384, Ideal.div (adj m c (ix2 r j)) (divisor m c r) * feat m c (ix2 j f) := by
    intro f
    rw [hdiv, acc_row m c t h1 p f r hr]
    exact div_sum_mul Finset.univ (fun j => adj m c (ix2 r j)) (fun j => feat m c (ix2 j f)) _ (fun j => hA _) (fun j => hH _) hD
  have hs : ∀ f : Fin 512, at2 (M := EReal) (feat m c) (1024 * (t.val / 32) + p.val) f.val = feat m c (ix2 r f) :=
    fun f => at2_eq (feat m c) (ix2 r f) _ _ hr rfl
  refine (congrArg₂ (· + ·)
      (congrArg₂ (· + ·) (Finset.sum_congr rfl fun f _ => ?_) (iblk4_apply m c t 0 o))
      (congrArg₂ (· + ·) (Finset.sum_congr rfl fun f _ => ?_) (iblk5_apply m c t 0 o))).trans (add_assoc _ _ _).symm
  · rw [key f]
    exact congrArg (_ * ·) (iblk2_apply m c t f o)
  · exact congrArg₂ (· * ·) ((hself_at m c t ((hcond0_1 t).mpr h1) p f).trans (hs f)) (iblk3_apply m c t f o)

/-! ## From the blocks to the array -/

/-- WHAT A WRITING STEP WRITES BACK is its block of the reference's result. -/
theorem flushed_eq (c : Dev nD) (hA : ∀ i, Fin' (adj m c i)) (hH : ∀ i, Fin' (feat m c i)) (hD : ∀ r, divisor m c r ≠ 0)
    (t : Fin cfg0.N) (hf : (cfg0.win 6).flush t = true) :
    (dats m 0 c).flushed 6 t = ((cfg0.win 6).blk t).view.read (Elt Ideal) (result m c) := by
  have h1 : t.val % 32 = 31 := (flush0_6 t).mp hf
  have h0 : ¬ t.val % 32 = 0 := by omega
  have hN : cfg0.N = 512 := N_0
  have ht : t.val < 512 := lt_of_lt_of_eq t.isLt hN
  rw [Cert.KernelIdeal.Value.flushed6]
  funext j
  obtain ⟨p, o, rfl⟩ : ∃ (p : Fin 1024) (o : Fin 512), j = ix2 p o := ⟨j 0, j 1, eq_ix2 j⟩
  show (outsAt0 m c t.val t.isLt).1 (ix2 p o) = result m c (((cfg0.win 6).blk t).view.emb (ix2 p o))
  rw [out_entry m c t h0 h1 p o ⟨1024 * (t.val / 32) + p.val, by have := p.isLt; omega⟩ rfl hA hH (hD _)]
  refine congrArg (result m c) (funext fun a => Fin.ext ?_)
  match a with
  | ⟨0, _⟩ => show 1024 * (t.val / 32) + p.val = win0_6.index t 0 * 1024 + 1 * p.val; rw [(idx6 t).1]; omega
  | ⟨1, _⟩ => show o.val = win0_6.index t 1 * 512 + 1 * o.val; rw [(idx6 t).2]; omega

/-- An index of the result array is in step `t`'s block iff each coordinate is in the block's range on its axis. -/
theorem mem_blk (t : Fin cfg0.N) (i : S16384x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v7).slice (win0_6.rect t)).set ↔ _
  rw [View.set_slice_whole, Rect.mem_set_unit]
  exact Iff.rfl

/-- Row `r` is written at the last step of row block `r / 1024`. -/
theorem cover (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 512 := N_0
  have hb : 32 * ((i 0).val / 1024) + 31 < cfg0.N := by rw [hN]; omega
  refine ⟨⟨32 * ((i 0).val / 1024) + 31, hb⟩, (flush0_6 _).mpr (by show (32 * ((i 0).val / 1024) + 31) % 32 = 31; omega), ?_⟩
  rw [mem_blk]
  intro a
  match a with
  | ⟨0, _⟩ =>
    show win0_6.index ⟨32 * ((i 0).val / 1024) + 31, hb⟩ 0 * 1024 ≤ (i 0).val
      ∧ (i 0).val < win0_6.index ⟨32 * ((i 0).val / 1024) + 31, hb⟩ 0 * 1024 + 1024
    rw [(idx6 _).1]
    show (32 * ((i 0).val / 1024) + 31) / 32 * 1024 ≤ (i 0).val ∧ (i 0).val < (32 * ((i 0).val / 1024) + 31) / 32 * 1024 + 1024
    omega
  | ⟨1, _⟩ =>
    show win0_6.index ⟨32 * ((i 0).val / 1024) + 31, hb⟩ 1 * 512 ≤ (i 1).val
      ∧ (i 1).val < win0_6.index ⟨32 * ((i 0).val / 1024) + 31, hb⟩ 1 * 512 + 512
    rw [(idx6 _).2]
    omega

/-- THE ARRAY after the run is the reference's result. -/
theorem final (c : Dev nD) (hA : ∀ i, Fin' (adj m c i)) (hH : ∀ i, Fin' (feat m c i)) (hD : ∀ r, divisor m c r ≠ 0) :
    (dats m 0 c).arrAt 6 cfg0.N = result m c :=
  (dats m 0 c).arrAt_eq_of_cover 6 (result m c) (flushed_eq m c hA hH hD) cover

/-- THE RUN: every weakly fair execution ends with the result array at the reference's result of the arguments, the arguments unchanged. -/
theorem run (hA : ∀ c i, Fin' (adj m c i)) (hH : ∀ c i, Fin' (feat m c i)) (hD : ∀ c r, divisor m c r ≠ 0) :
    θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hA c) (hH c) (hD c)), (h c).2⟩)
    (Cert.KernelIdeal.Value.run_blocks m ρ)

end Cert.Sage.KernelValue

end
-- ==== Proof.lean ====
/-
  The certificate of a graph layer `relu((A_norm · h) · Wnᵀ + bn + h · Wsᵀ + bs)`, where row `r` of `A_norm` is row `r` of the
  adjacency matrix `a` divided by `D(r) = ∑_c a(r, c) + ε`.

  The kernel walks a 16 × 32 grid: for each block of 1024 rows it accumulates, over 32 blocks of 512 columns, the unnormalised
  products `∑_c a(r, c) · h(c, f)` and the row totals `∑_c a(r, c)`, and at the last column block divides the former by
  `(row total) + ε` and applies the two small linear layers, the biases and the maximum with zero.  The reference divides the
  adjacency matrix first.  Over the extended reals the two agree when the adjacency and feature entries are reals and no `D(r)` is
  zero: then a quotient by `D(r)` is a product with a real, which moves across the finite sum over `c`.  Where `D(r) = 0` the
  reference itself divides by zero, and the two programs differ; the precondition excludes exactly that.

  The three frame claims are the generated frame runs; the idealization rewrote nothing, so `preserves` is trivial; the value claim
  sets the kernel's run (the result array is the reference's function of the arguments) beside the reference's generated run.
-/
import proofs.«169291_j18614388261160_2_alg».proof.Defs
import proofs.«169291_j18614388261160_2_alg».proof.Proof.Gen.Kernel
import proofs.«169291_j18614388261160_2_alg».proof.Proof.Gen.Kernel.Frame
import proofs.«169291_j18614388261160_2_alg».proof.Proof.Gen.KernelIdeal
import proofs.«169291_j18614388261160_2_alg».proof.Proof.Gen.KernelIdeal.Frame
import proofs.«169291_j18614388261160_2_alg».proof.Proof.Gen.KernelIdeal.Value
import proofs.«169291_j18614388261160_2_alg».proof.Proof.Gen.ReferenceIdeal
import proofs.«169291_j18614388261160_2_alg».proof.Proof.Gen.ReferenceIdeal.Run
import proofs.«169291_j18614388261160_2_alg».proof.Proof.Gen.ReferenceIdeal.Read
import proofs.«169291_j18614388261160_2_alg».proof.Proof.Gen.Pre_finite_inputs
import proofs.«169291_j18614388261160_2_alg».proof.Proof.Pre
import proofs.«169291_j18614388261160_2_alg».proof.Proof.KernelValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The divisor the precondition speaks of is the reference's: the same operations of the adjacency matrix. -/
theorem divisor_ne (x1 : FVec Ideal Cert.ReferenceIdeal.S16384x16384 .f32) (i : Cert.ReferenceIdeal.S16384x1.Idx)
    (h : Cert.Sage.Pre.rowDivisor x1 i ≠ 0) : Cert.ReferenceIdeal.Read.val_main_v3 (F := Ideal) x1 i ≠ 0 := h

/-- Both programs end with the reference's function of arguments that agree: the kernel by its value leg (under what the
    precondition says of the adjacency and feature entries and of the row divisors), the reference by its generated run. -/
theorem algebraic : Cert.algebraic_KernelIdeal_ReferenceIdeal := by
  intro m ρ m' ρ' hpre hagree
  have hdec := fun c => Cert.Sage.Pre.decode _ _ _ _ _ _ (hpre c)
  refine ⟨fun c => Cert.Sage.KernelValue.result m c,
    Cert.Sage.KernelValue.run m ρ (fun c => (hdec c).2.1) (fun c => (hdec c).1)
      (fun c r => divisor_ne _ _ ((hdec c).2.2 (ix2 r (0 : Fin 1)))), ?_⟩
  refine (θ_run Cert.ReferenceIdeal.defs _ _).mono (fun _ h c => ⟨(h c).1.trans ?_, (h c).2⟩)
    (Cert.ReferenceIdeal.Value.run (F := Ideal) m' ρ')
  show _ = Cert.Sage.KernelValue.result m c
  rw [(hagree c).1, (hagree c).2.1, (hagree c).2.2.1, (hagree c).2.2.2.1, (hagree c).2.2.2.2.1, (hagree c).2.2.2.2.2]
  exact Cert.ReferenceIdeal.Read.val_main_v18_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
